-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S64x768 : Shape := ⟨2, ![64, 768]⟩
abbrev S768x64 : Shape := ⟨2, ![768, 64]⟩
abbrev S768 : Shape := ⟨1, ![768]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S768x64 : S_.BroadcastsInDim S768x64 (![] : Fin 0 → Fin S768x64.rank)
  reducesTo_S768x64_S_d0_1 : S768x64.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S65536x768 .f32) (main_arg1 : FVec F S64x768 .f32) (main_arg2 : FVec F S768x64 .f32) (main_arg3 : FVec F S768 .f32) (main_arg4 : FVec F S768 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S768x64 .f32 := Host.absf main_arg2
  let main_cst_2 : FVec F S_ .f32 := constant S_ .f32 0x7F800000#32
  let main_v10 : FVec F S768x64 .f32 := broadcastInDim S768x64 ![] bcast_S_S768x64 main_cst_2
  let main_v11 : IVec S768x64 1 := cmpf .olt main_v9 main_v10
  let main_c_3 : IVec S_ 1 := constantI S_ 1 1#1
  let main_v12 : IVec S_ 1 := (fun x v => Host.reduce IntOp.andi x v reducesTo_S768x64_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S65536x768 : Shape := ⟨2, ![65536, 768]⟩
abbrev S64x768 : Shape := ⟨2, ![64, 768]⟩
abbrev S768x64 : Shape := ⟨2, ![768, 64]⟩
abbrev S768 : Shape := ⟨1, ![768]⟩
abbrev S_ : Shape := ⟨0, ![]⟩
abbrev S66048x768 : Shape := ⟨2, ![66048, 768]⟩
abbrev S1x768 : Shape := ⟨2, ![1, 768]⟩
abbrev S1536x768 : Shape := ⟨2, ![1536, 768]⟩
abbrev S1536 : Shape := ⟨1, ![1536]⟩
abbrev S1536x1 : Shape := ⟨2, ![1536, 1]⟩
abbrev S1536x64 : Shape := ⟨2, ![1536, 64]⟩

abbrev nBuf : Space → Nat
  | .hbm => 15
  | .vmem => 8
  | .smem => 0
  | _ => 0

abbrev bufTy : (tb : Table) → Fin (tcTables nBuf tb) → BufTy
  | .hbm, ⟨0, _⟩ => ⟨S65536x768, .f32⟩
  | .hbm, ⟨1, _⟩ => ⟨S64x768, .f32⟩
  | .hbm, ⟨2, _⟩ => ⟨S768x64, .f32⟩
  | .hbm, ⟨3, _⟩ => ⟨S768, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S66048x768, .f32⟩
  | .hbm, ⟨8, _⟩ => ⟨S64x768, .bf16⟩
  | .hbm, ⟨9, _⟩ => ⟨S64x768, .f32⟩
  | .hbm, ⟨10, _⟩ => ⟨S64x768, .bf16⟩
  | .hbm, ⟨11, _⟩ => ⟨S1x768, .f32⟩
  | .hbm, ⟨12, _⟩ => ⟨S1x768, .f32⟩
  | .hbm, ⟨13, _⟩ => ⟨S66048x768, .f32⟩
  | .hbm, ⟨14, _⟩ => ⟨S65536x768, .f32⟩
  | .local _ .vmem, ⟨0, _⟩ => ⟨S1536x768, .f32⟩
  | .local _ .vmem, ⟨1, _⟩ => ⟨S1536x768, .f32⟩
  | .local _ .vmem, ⟨2, _⟩ => ⟨S64x768, .bf16⟩
  | .local _ .vmem, ⟨3, _⟩ => ⟨S64x768, .bf16⟩
  | .local _ .vmem, ⟨4, _⟩ => ⟨S1x768, .f32⟩
  | .local _ .vmem, ⟨5, _⟩ => ⟨S1x768, .f32⟩
  | .local _ .vmem, ⟨6, _⟩ => ⟨S1536x768, .f32⟩
  | .local _ .vmem, ⟨7, _⟩ => ⟨S1536x768, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S65536x768_S66048x768_05120_000 : S65536x768.Pads (![0, 0] : Fin 2 → Nat) ![512, 0] ![0, 0] S66048x768
  h_S_ : 0 < S_.numel
  bitsLt_bf16_f32 : FTy.bits .bf16 < FTy.bits .f32
  transposes_S768x64_S64x768_1_0 : S768x64.Transposes [1, 0] S64x768
  shapeCasts_S768_S1x768 : S768.ShapeCasts S1x768
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S1536 : S1536x768.Reduces [1] S1536
  shapeCasts_S1536_S1536x1 : S1536.ShapeCasts S1536x1
  broadcasts_S1536x1_S1536x768 : S1536x1.Broadcasts S1536x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1536x768 : S1x768.Broadcasts S1536x768
  inb_S64x768_S64x768_0_0 : ∀ a, (![0, 0] : Fin 2 → Nat) a + S64x768.size a ≤ S64x768.size a
  h_S64x768 : 0 < S64x768.numel
  shapeCasts_S64x768_S64x768 : S64x768.ShapeCasts S64x768
  slices_S66048x768_S65536x768_0_0 : S66048x768.Slices ![0, 0] S65536x768
  dot_S1536x768_S64x768_S1536x64_1_1_0_0_n_n_wf : DotDims.WF S1536x768 S64x768 S1536x64 [1] [1] [0] [0] [] []
  dot_S1536x64_S64x768_S1536x768_1_0_0_1_n_n_wf : DotDims.WF S1536x64 S64x768 S1536x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x768.size a ≤ S66048x768.size a
  hwx0_0 : ∀ i : grid0.Coords, EltTy.bits .f32 = 32 ∨ (Rect.block (s := S66048x768) S1536x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .bf16 = 32 ∨ (Rect.block (s := S64x768) S64x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .bf16 = 32 ∨ (Rect.block (s := S64x768) S64x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1536x768.size a ≤ S66048x768.size a
  hwx0_5 : ∀ i : grid0.Coords, EltTy.bits .f32 = 32 ∨ (Rect.block (s := S66048x768) S1536x768.size (cc0_transform_5 i) (hinb0_5 i)).WholeWords (EltTy.packing .f32)

variable [Facts₀]

def dot_S1536x768_S64x768_S1536x64_1_1_0_0_n_n : DotDims S1536x768 S64x768 S1536x64 where
  lhsContracting := [1]
  rhsContracting := [1]
  lhsNonContracting := [0]
  rhsNonContracting := [0]
  lhsBatch := []
  rhsBatch := []
  wf := dot_S1536x768_S64x768_S1536x64_1_1_0_0_n_n_wf
def dot_S1536x64_S64x768_S1536x768_1_0_0_1_n_n : DotDims S1536x64 S64x768 S1536x768 where
  lhsContracting := [1]
  rhsContracting := [0]
  lhsNonContracting := [0]
  rhsNonContracting := [1]
  lhsBatch := []
  rhsBatch := []
  wf := dot_S1536x64_S64x768_S1536x768_1_0_0_1_n_n_wf

abbrev win0_0 : Pipeline.Window sig grid0 :=
  Pipeline.Window.ofSpec (Memref.whole main_v0) S1536x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1536x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x768 : Shape := ⟨2, ![65536, 768]⟩
abbrev S64x768 : Shape := ⟨2, ![64, 768]⟩
abbrev S768x64 : Shape := ⟨2, ![768, 64]⟩
abbrev S768 : Shape := ⟨1, ![768]⟩
abbrev S_ : Shape := ⟨0, ![]⟩
abbrev S65536 : Shape := ⟨1, ![65536]⟩
abbrev S65536x1 : Shape := ⟨2, ![65536, 1]⟩
abbrev S1x768 : Shape := ⟨2, ![1, 768]⟩
abbrev S65536x64 : Shape := ⟨2, ![65536, 64]⟩

abbrev nBuf : Space → Nat
  | .hbm => 42
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S64x768, .f32⟩
  | .hbm, ⟨2, _⟩ => ⟨S768x64, .f32⟩
  | .hbm, ⟨3, _⟩ => ⟨S768, .f32⟩
  | .hbm, ⟨4, _⟩ => ⟨S768, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S65536x768, .f32⟩
  | .hbm, ⟨12, _⟩ => ⟨S65536x768, .f32⟩
  | .hbm, ⟨13, _⟩ => ⟨S65536x768, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x768, .f32⟩
  | .hbm, ⟨21, _⟩ => ⟨S65536x768, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x768, .f32⟩
  | .hbm, ⟨27, _⟩ => ⟨S65536x768, .f32⟩
  | .hbm, ⟨28, _⟩ => ⟨S1x768, .f32⟩
  | .hbm, ⟨29, _⟩ => ⟨S65536x768, .f32⟩
  | .hbm, ⟨30, _⟩ => ⟨S65536x768, .f32⟩
  | .hbm, ⟨31, _⟩ => ⟨S1x768, .f32⟩
  | .hbm, ⟨32, _⟩ => ⟨S65536x768, .f32⟩
  | .hbm, ⟨33, _⟩ => ⟨S65536x768, .f32⟩
  | .hbm, ⟨34, _⟩ => ⟨S65536x64, .f32⟩
  | .hbm, ⟨35, _⟩ => ⟨S_, .f32⟩
  | .hbm, ⟨36, _⟩ => ⟨S65536x64, .f32⟩
  | .hbm, ⟨37, _⟩ => ⟨S65536x64, .f32⟩
  | .hbm, ⟨38, _⟩ => ⟨S65536x768, .f32⟩
  | .hbm, ⟨39, _⟩ => ⟨S_, .f32⟩
  | .hbm, ⟨40, _⟩ => ⟨S65536x768, .f32⟩
  | .hbm, ⟨41, _⟩ => ⟨S65536x768, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S65536x768_S65536_d1 : S65536x768.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x768_0_1 : S65536x1.BroadcastsInDim S65536x768 (![0, 1] : Fin 2 → Fin S65536x768.rank)
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  bcast_S_S65536x64 : S_.BroadcastsInDim S65536x64 (![] : Fin 0 → Fin S65536x64.rank)
  bcast_S_S65536x768 : S_.BroadcastsInDim S65536x768 (![] : Fin 0 → Fin S65536x768.rank)
  dot_S65536x768_S64x768_S65536x64_1_1_0_0_n_n_wf : DotDims.WF S65536x768 S64x768 S65536x64 [1] [1] [0] [0] [] []
  dot_S65536x64_S768x64_S65536x768_1_1_0_0_n_n_wf : DotDims.WF S65536x64 S768x64 S65536x768 [1] [1] [0] [0] [] []

variable [Facts₀]

def dot_S65536x768_S64x768_S65536x64_1_1_0_0_n_n : DotDims S65536x768 S64x768 S65536x64 where
  lhsContracting := [1]
  rhsContracting := [1]
  lhsNonContracting := [0]
  rhsNonContracting := [0]
  lhsBatch := []
  rhsBatch := []
  wf := dot_S65536x768_S64x768_S65536x64_1_1_0_0_n_n_wf
def dot_S65536x64_S768x64_S65536x768_1_1_0_0_n_n : DotDims S65536x64 S768x64 S65536x768 where
  lhsContracting := [1]
  rhsContracting := [1]
  lhsNonContracting := [0]
  rhsNonContracting := [0]
  lhsBatch := []
  rhsBatch := []
  wf := dot_S65536x64_S768x64_S65536x768_1_1_0_0_n_n_wf

class Facts : Prop extends Facts₀ where

variable [Facts]
-- ==== Proof.RowSpec.lean ====
/-
  What one row of the result is, as a function of that row of `x` and of the weights — on the extended reals.

  Both programs treat the rows of `x` independently.  For a row `r : Fin 768 → EReal`:
    mean      = (Σₖ rₖ) / 768
    centredₖ  = rₖ − mean
    variance  = (Σₖ centredₖ²) / 768
    invStd    = (variance + ε)^(−1/2)
    normedₖ   = centredₖ · (invStd · γₖ) + βₖ                      (layer normalisation, scale folded)
    hiddenₘ   = max (Σₖ normedₖ · w1ₘₖ) 0                          (first linear map, 768 → 64, then relu)
    outₙ      = max (Σₘ hiddenₘ · w2ₙₘ) 0                          (second linear map, 64 → 768, then relu)
  The divisor `768`, `ε` and the relu's `0` are the same float words in both programs; they are kept as the words'
  values and never evaluated.  The quotient is the extended reals' (`Ideal.div`), the inverse square root
  `Ideal.rsqrt`: the same functions on both sides, so no corner of either is opened.

  The one difference between the two programs is the grouping of the scale: one multiplies the centred entry by
  `invStd · γ`, the other multiplies it by `invStd` and then by `γ`.  Multiplication on the extended reals is
  associative, infinities included, so no finiteness is needed (`normed_assoc`).
-/
import Idealize.ShloMosaic.PureOps.Ideal

noncomputable section

namespace Cert.RowSpec

open Idealize.ShloMosaic
open scoped BigOperators

/-- The row length as the float word both programs divide by (768.0). -/
abbrev width : EReal := Ideal.ofBits .f32 0x44400000#32
/-- The variance's regulariser, the float word nearest 1e-5. -/
abbrev eps : EReal := Ideal.ofBits .f32 0x3727C5AC#32
/-- The float zero a relu compares with. -/
abbrev zero : EReal := Ideal.ofBits .f32 0x00000000#32

def mean (r : Fin 768 → EReal) : EReal := Ideal.div (∑ k, r k) width
def centred (r : Fin 768 → EReal) (k : Fin 768) : EReal := r k - mean r
def variance (r : Fin 768 → EReal) : EReal := Ideal.div (∑ k, centred r k * centred r k) width
def invStd (r : Fin 768 → EReal) : EReal := Ideal.rsqrt (variance r + eps)
def normed (r γ β : Fin 768 → EReal) (k : Fin 768) : EReal := centred r k * (invStd r * γ k) + β k
def hidden (r γ β : Fin 768 → EReal) (w1 : Fin 64 → Fin 768 → EReal) (m : Fin 64) : EReal :=
  max (∑ k, normed r γ β k * w1 m k) zero
def out (r γ β : Fin 768 → EReal) (w1 : Fin 64 → Fin 768 → EReal) (w2 : Fin 768 → Fin 64 → EReal) (n : Fin 768) : EReal :=
  max (∑ m, hidden r γ β w1 m * w2 n m) zero

/-- Scaling by `invStd` and then by `γ` is scaling by their product: multiplication of extended reals associates. -/
theorem normed_assoc (r γ β : Fin 768 → EReal) (k : Fin 768) :
    centred r k * invStd r * γ k + β k = normed r γ β k := by
  unfold normed; rw [mul_assoc]

/-- The row function depends on its arguments entry by entry. -/
theorem out_congr {r r' γ γ' β β' : Fin 768 → EReal} {w1 w1' : Fin 64 → Fin 768 → EReal} {w2 w2' : Fin 768 → Fin 64 → EReal}
    (hr : ∀ k, r k = r' k) (hγ : ∀ k, γ k = γ' k) (hβ : ∀ k, β k = β' k) (h1 : ∀ j k, w1 j k = w1' j k)
    (h2 : ∀ c j, w2 c j = w2' c j) (n : Fin 768) : out r γ β w1 w2 n = out r' γ' β' w1' w2' n := by
  obtain rfl : r = r' := funext hr
  obtain rfl : γ = γ' := funext hγ
  obtain rfl : β = β' := funext hβ
  obtain rfl : w1 = w1' := funext fun j => funext (h1 j)
  obtain rfl : w2 = w2' := funext fun c => funext (h2 c)
  rfl

end Cert.RowSpec

end
-- ==== Proof.Result.lean ====
/-
  The result both programs compute, as one function of the five argument arrays.

  Entry `(n, c)` of the `[65536, 768]` result is the row function `Cert.RowSpec.out` of row `n` of `x`, with the
  weights read entry by entry: `γ`, `β` vectors of length 768, `w1 : [64, 768]` read `(m, k)`, `w2 : [768, 64]` read
  `(c, m)`.  Stated over literal shapes so that it applies to either program's arrays.
-/
import proofs.«164816_j11330123727567_2_alg».proof.Proof.RowSpec
import Idealize.ShloMosaic.Lib.ValueIdx

noncomputable section

namespace Cert.Result

open Idealize.ShloMosaic Idealize.ShloMosaic.ValueIdx

/-- Entry `(n, c)` of the result. -/
def entry (x : (⟨2, ![65536, 768]⟩ : Shape).Idx → EReal) (w1 : (⟨2, ![64, 768]⟩ : Shape).Idx → EReal)
    (w2 : (⟨2, ![768, 64]⟩ : Shape).Idx → EReal) (γ β : (⟨1, ![768]⟩ : Shape).Idx → EReal) (n : Fin 65536) (c : Fin 768) : EReal :=
  RowSpec.out (fun k => x (ix2 n k)) (fun k => γ (ix1 k)) (fun k => β (ix1 k)) (fun m k => w1 (ix2 m k))
    (fun c m => w2 (ix2 c m)) c

/-- The whole result array. -/
def G (x : (⟨2, ![65536, 768]⟩ : Shape).Idx → EReal) (w1 : (⟨2, ![64, 768]⟩ : Shape).Idx → EReal)
    (w2 : (⟨2, ![768, 64]⟩ : Shape).Idx → EReal) (γ β : (⟨1, ![768]⟩ : Shape).Idx → EReal) :
    (⟨2, ![65536, 768]⟩ : Shape).Idx → EReal :=
  fun i => entry x w1 w2 γ β (i 0) (i 1)

theorem G_apply (x : (⟨2, ![65536, 768]⟩ : Shape).Idx → EReal) (w1 : (⟨2, ![64, 768]⟩ : Shape).Idx → EReal)
    (w2 : (⟨2, ![768, 64]⟩ : Shape).Idx → EReal) (γ β : (⟨1, ![768]⟩ : Shape).Idx → EReal) (n : Fin 65536) (c : Fin 768) :
    G x w1 w2 γ β (ix2 n c) = entry x w1 w2 γ β n c := rfl

end Cert.Result

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.PayloadValue.lean ====
/-
  The kernel body's arithmetic, read at one entry of the block.

  At a grid point the body holds a block of 1536 rows of `x` (`v : [1536, 768]`), the two weight matrices as
  `[64, 768]` blocks (`wa` = w1, `wb` = w2 transposed) and `γ`, `β` as rows `[1, 768]`.  What it stores is built in
  stages, each a whole-block operation; read at the entry `(p, q)` each stage is the matching stage of
  `Cert.RowSpec` applied to row `p` of the block:
    meanCol v      (p, ·)  =  (Σₖ v(p,k)) / 768                 a lane sum, kept as a column
    centredBlk v   (p, q)  =  centred (row p) q
    invStdCol v    (p, ·)  =  invStd (row p)                    the same column statistic of the squares, + ε, rsqrt
    normedBlk      (p, q)  =  normed (row p) γ β q
    hiddenBlk      (p, m)  =  hidden (row p) γ β w1 m           a product contracting the 768 lanes of both operands
    outBlk         (p, n)  =  out (row p) γ β w1 w2 n           a product contracting the 64 hidden units
  A change of float format is the identity on extended reals, and a product into a zero accumulator is the plain sum
  of products over the contracted coordinate.  The two products differ in which axis of the weight block is
  contracted: the first pairs lane `k` of the normalised row with lane `k` of weight row `m`; the second pairs hidden
  unit `m` with row `m` of the transposed weight block at lane `n`.
-/
import proofs.«164816_j11330123727567_2_alg».proof.Proof.Gen.KernelIdeal.Skeleton
import proofs.«164816_j11330123727567_2_alg».proof.Proof.LibKeepdims
import proofs.«164816_j11330123727567_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Cert.KernelIdeal Cert.KernelIdeal.Gen Idealize.ShloMosaic Idealize.ShloMosaic.ValueIdx
open scoped BigOperators

/-! ## The two products at an entry -/

/-- The first product's dimension record contracts one axis, of extent 768. -/
abbrev dotA := dot_S1536x768_S64x768_S1536x64_1_1_0_0_n_n
/-- The second product's dimension record contracts one axis, of extent 64. -/
abbrev dotB := dot_S1536x64_S64x768_S1536x768_1_0_0_1_n_n

theorem dotA_lhs0 (i : S1536x64.Idx) (q : dotA.contr.Idx) : (dotA.lhsIdx i q 0).val = (i 0).val := by
  unfold DotDims.lhsIdx
  rw [dif_neg (show ¬(0 : Fin S1536x768.rank) ∈ dotA.lhsBatch by decide), dif_pos (show (0 : Fin S1536x768.rank) ∈ dotA.lhsNonContracting by decide)]
  rfl
theorem dotA_lhs1 (i : S1536x64.Idx) (q : dotA.contr.Idx) : (dotA.lhsIdx i q 1).val = (q ⟨0, by decide⟩).val :=
  dotA.lhsIdx_val_of_single rfl i q
theorem dotA_rhs0 (i : S1536x64.Idx) (q : dotA.contr.Idx) : (dotA.rhsIdx i q 0).val = (i 1).val := by
  unfold DotDims.rhsIdx
  rw [dif_neg (show ¬(0 : Fin S64x768.rank) ∈ dotA.rhsBatch by decide), dif_pos (show (0 : Fin S64x768.rank) ∈ dotA.rhsNonContracting by decide)]
  rfl
theorem dotA_rhs1 (i : S1536x64.Idx) (q : dotA.contr.Idx) : (dotA.rhsIdx i q 1).val = (q ⟨0, by decide⟩).val :=
  dotA.rhsIdx_val_of_single rfl i q

/-- The first product into a zero accumulator, at `(p, m)`: row `p` of the left operand against row `m` of the right,
    lane by lane. -/
theorem matmulA_apply (l : FVec Ideal S1536x768 .bf16) (r : FVec Ideal S64x768 .bf16) (p : Fin 1536) (m : Fin 64) :
    matmul dotA none l r (constant S1536x64 .f32 0x00000000#32) (ix2 p m) = ∑ k : Fin 768, l (ix2 p k) * r (ix2 m k) := by
  show FloatOps.matmul dotA none l r (constant S1536x64 .f32 0x00000000#32) (ix2 p m) = _
  rw [Ideal.matmul_constant_zero_apply, ← Equiv.sum_comp (contrEquiv1 dotA 768 rfl rfl).symm]
  refine Finset.sum_congr rfl fun k _ => ?_
  have hk := contrEquiv1_symm_val dotA 768 rfl rfl k
  have el : dotA.lhsIdx (ix2 p m) ((contrEquiv1 dotA 768 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p m) ((contrEquiv1 dotA 768 rfl rfl).symm k) = ix2 m k := funext fun a => Fin.ext (by
    match a with
    | ⟨0, _⟩ => exact dotA_rhs0 _ _
    | ⟨1, _⟩ => exact (dotA_rhs1 _ _).trans hk)
  rw [el, er]

theorem dotB_lhs0 (i : S1536x768.Idx) (q : dotB.contr.Idx) : (dotB.lhsIdx i q 0).val = (i 0).val := by
  unfold DotDims.lhsIdx
  rw [dif_neg (show ¬(0 : Fin S1536x64.rank) ∈ dotB.lhsBatch by decide), dif_pos (show (0 : Fin S1536x64.rank) ∈ dotB.lhsNonContracting by decide)]
  rfl
theorem dotB_lhs1 (i : S1536x768.Idx) (q : dotB.contr.Idx) : (dotB.lhsIdx i q 1).val = (q ⟨0, by decide⟩).val :=
  dotB.lhsIdx_val_of_single rfl i q
theorem dotB_rhs0 (i : S1536x768.Idx) (q : dotB.contr.Idx) : (dotB.rhsIdx i q 0).val = (q ⟨0, by decide⟩).val :=
  dotB.rhsIdx_val_of_single rfl i q
theorem dotB_rhs1 (i : S1536x768.Idx) (q : dotB.contr.Idx) : (dotB.rhsIdx i q 1).val = (i 1).val := by
  unfold DotDims.rhsIdx
  rw [dif_neg (show ¬(1 : Fin S64x768.rank) ∈ dotB.rhsBatch by decide), dif_pos (show (1 : Fin S64x768.rank) ∈ dotB.rhsNonContracting by decide)]
  rfl

/-- The second product into a zero accumulator, at `(p, n)`: row `p` of the left operand against column `n` of the
    right, over the 64 rows of the right operand. -/
theorem matmulB_apply (l : FVec Ideal S1536x64 .bf16) (r : FVec Ideal S64x768 .bf16) (p : Fin 1536) (n : Fin 768) :
    matmul dotB none l r (constant S1536x768 .f32 0x00000000#32) (ix2 p n) = ∑ m : Fin 64, l (ix2 p m) * r (ix2 m n) := by
  show FloatOps.matmul dotB none l r (constant S1536x768 .f32 0x00000000#32) (ix2 p n) = _
  rw [Ideal.matmul_constant_zero_apply, ← Equiv.sum_comp (contrEquiv1 dotB 64 rfl rfl).symm]
  refine Finset.sum_congr rfl fun k _ => ?_
  have hk := contrEquiv1_symm_val dotB 64 rfl rfl k
  have el : dotB.lhsIdx (ix2 p n) ((contrEquiv1 dotB 64 rfl rfl).symm k) = ix2 p k := funext fun a => Fin.ext (by
    match a with
    | ⟨0, _⟩ => exact dotB_lhs0 _ _
    | ⟨1, _⟩ => exact (dotB_lhs1 _ _).trans hk)
  have er : dotB.rhsIdx (ix2 p n) ((contrEquiv1 dotB 64 rfl rfl).symm k) = ix2 k n := funext fun a => Fin.ext (by
    match a with
    | ⟨0, _⟩ => exact (dotB_rhs0 _ _).trans hk
    | ⟨1, _⟩ => exact dotB_rhs1 _ _)
  rw [el, er]

/-! ## The stages of the body, block-wide, and each at an entry -/

/-- A block's row statistic kept as a column: the lane sum divided by the row length. -/
def meanCol (v : FVec Ideal S1536x768 .f32) : FVec Ideal S1536x1 .f32 :=
  divf (shapeCast S1536x1 (multiReduction .add [1] S1536 v 0x00000000#32 reduces_S1536x768_S1536 (.inl rfl) rfl) shapeCasts_S1536_S1536x1)
    (broadcast S1536x1 (Scalar.ofBits (F := Ideal) .f32 0x44400000#32))

theorem meanCol_apply (v : FVec Ideal S1536x768 .f32) (p : Fin 1536) (u : Fin 1) :
    meanCol v (ix2 p u) = Ideal.div (∑ k : Fin 768, v (ix2 p k)) RowSpec.width := by
  unfold meanCol
  rw [divf_apply, broadcast_apply]
  refine congrArg (Ideal.div · _) ?_
  refine (Keepdims.shapeCast_a_a1_apply _ shapeCasts_S1536_S1536x1 p u).trans ?_
  exact Keepdims.multiReduction_add_rows v 0x00000000#32 reduces_S1536x768_S1536 (.inl rfl) rfl p

/-- The block with each row's mean taken off. -/
def centredBlk (v : FVec Ideal S1536x768 .f32) : FVec Ideal S1536x768 .f32 :=
  subf v (broadcastTo S1536x768 (meanCol v) broadcasts_S1536x1_S1536x768)

theorem centredBlk_apply (v : FVec Ideal S1536x768 .f32) (p : Fin 1536) (q : Fin 768) :
    centredBlk v (ix2 p q) = RowSpec.centred (fun k => v (ix2 p k)) q := by
  unfold centredBlk RowSpec.centred RowSpec.mean
  rw [subf_apply]
  refine congrArg (v (ix2 p q) - ·) ?_
  exact (Keepdims.broadcastTo_a1_ab_apply (meanCol v) broadcasts_S1536x1_S1536x768 p q).trans (meanCol_apply v p 0)

/-- Each row's inverse standard deviation, as a column. -/
def invStdCol (v : FVec Ideal S1536x768 .f32) : FVec Ideal S1536x1 .f32 :=
  rsqrt (addf (meanCol (mulf (centredBlk v) (centredBlk v))) (broadcast S1536x1 (Scalar.ofBits (F := Ideal) .f32 0x3727C5AC#32)))

theorem invStdCol_apply (v : FVec Ideal S1536x768 .f32) (p : Fin 1536) (u : Fin 1) :
    invStdCol v (ix2 p u) = RowSpec.invStd (fun k => v (ix2 p k)) := by
  unfold invStdCol RowSpec.invStd RowSpec.variance
  show Ideal.rsqrt (meanCol (mulf (centredBlk v) (centredBlk v)) (ix2 p u) + RowSpec.eps) = _
  rw [meanCol_apply]
  refine congrArg (fun s => Ideal.rsqrt (Ideal.div s RowSpec.width + RowSpec.eps)) ?_
  refine Finset.sum_congr rfl fun k _ => ?_
  rw [mulf_apply, centredBlk_apply]

/-- The normalised block: centred, scaled by `invStd · γ`, shifted by `β`. -/
def normedBlk (v : FVec Ideal S1536x768 .f32) (g b : FVec Ideal S1x768 .f32) : FVec Ideal S1536x768 .f32 :=
  addf (mulf (centredBlk v) (mulf (broadcastTo S1536x768 (invStdCol v) broadcasts_S1536x1_S1536x768)
      (broadcastTo S1536x768 g broadcasts_S1x768_S1536x768)))
    (broadcastTo S1536x768 b broadcasts_S1x768_S1536x768)

theorem normedBlk_apply (v : FVec Ideal S1536x768 .f32) (g b : FVec Ideal S1x768 .f32) (p : Fin 1536) (q : Fin 768) :
    normedBlk v g b (ix2 p q)
      = RowSpec.normed (fun k => v (ix2 p k)) (fun k => g (ix2 (0 : Fin 1) k)) (fun k => b (ix2 (0 : Fin 1) k)) q := by
  unfold normedBlk RowSpec.normed
  rw [addf_apply, mulf_apply, mulf_apply, centredBlk_apply,
    Keepdims.broadcastTo_a1_ab_apply (invStdCol v) broadcasts_S1536x1_S1536x768 p q, invStdCol_apply,
    broadcastTo_1b_ab_apply g broadcasts_S1x768_S1536x768 p q, broadcastTo_1b_ab_apply b broadcasts_S1x768_S1536x768 p q]

/-- The hidden block: the normalised block times w1 (lanes against lanes), then relu. -/
def hiddenBlk (v : FVec Ideal S1536x768 .f32) (g b : FVec Ideal S1x768 .f32) (wa : FVec Ideal S64x768 .bf16) :
    FVec Ideal S1536x64 .f32 :=
  maximumf (matmul dotA none (truncf .bf16 (normedBlk v g b) bitsLt_bf16_f32) wa (constant S1536x64 .f32 0x00000000#32))
    (broadcast S1536x64 (Scalar.ofBits (F := Ideal) .f32 0x00000000#32))

theorem hiddenBlk_apply (v : FVec Ideal S1536x768 .f32) (g b : FVec Ideal S1x768 .f32) (wa : FVec Ideal S64x768 .bf16)
    (p : Fin 1536) (m : Fin 64) :
    hiddenBlk v g b wa (ix2 p m)
      = RowSpec.hidden (fun k => v (ix2 p k)) (fun k => g (ix2 (0 : Fin 1) k)) (fun k => b (ix2 (0 : Fin 1) k))
          (fun m k => wa (ix2 m k)) m := by
  unfold hiddenBlk RowSpec.hidden
  rw [maximumf_apply, broadcast_apply, matmulA_apply]
  refine congrArg (max · RowSpec.zero) ?_
  refine Finset.sum_congr rfl fun k _ => ?_
  rw [truncf_apply, normedBlk_apply]

/-- The stored block: the hidden block times the transposed w2 (hidden units against rows), then relu. -/
def outBlk (v : FVec Ideal S1536x768 .f32) (g b : FVec Ideal S1x768 .f32) (wa wb : FVec Ideal S64x768 .bf16) :
    FVec Ideal S1536x768 .f32 :=
  maximumf (matmul dotB none (truncf .bf16 (hiddenBlk v g b wa) bitsLt_bf16_f32) wb (constant S1536x768 .f32 0x00000000#32))
    (broadcast S1536x768 (Scalar.ofBits (F := Ideal) .f32 0x00000000#32))

theorem outBlk_apply (v : FVec Ideal S1536x768 .f32) (g b : FVec Ideal S1x768 .f32) (wa wb : FVec Ideal S64x768 .bf16)
    (p : Fin 1536) (n : Fin 768) :
    outBlk v g b wa wb (ix2 p n)
      = RowSpec.out (fun k => v (ix2 p k)) (fun k => g (ix2 (0 : Fin 1) k)) (fun k => b (ix2 (0 : Fin 1) k))
          (fun m k => wa (ix2 m k)) (fun n m => wb (ix2 m n)) n := by
  unfold outBlk RowSpec.out
  rw [maximumf_apply, broadcast_apply, matmulB_apply]
  refine congrArg (max · RowSpec.zero) ?_
  refine Finset.sum_congr rfl fun m _ => ?_
  rw [truncf_apply, hiddenBlk_apply]

/-! ## The body's payload is the last stage -/

/-- The value the body stores, as a function of what it loaded, is `outBlk` of the loads (each passes through a
    cast to its own shape, which is the identity). -/
theorem pay_eq (x0 : Vec Ideal S1536x768 .f32) (g b : Vec Ideal S1x768 .f32) (wa wb : Vec Ideal S64x768 .bf16) :
    k0_pay1 (F := Ideal) x0 g b wa wb = outBlk x0 g b wa wb := by
  unfold k0_pay1
  simp only [shapeCast_self]
  rfl

/-- The stored block at `(p, n)` is the specification's row function of row `p` of the loaded block of `x`. -/
theorem pay_apply (x0 : Vec Ideal S1536x768 .f32) (g b : Vec Ideal S1x768 .f32) (wa wb : Vec Ideal S64x768 .bf16)
    (p : Fin 1536) (n : Fin 768) :
    k0_pay1 (F := Ideal) x0 g b wa wb (ix2 p n)
      = RowSpec.out (fun k => x0 (ix2 p k)) (fun k => g (ix2 (0 : Fin 1) k)) (fun k => b (ix2 (0 : Fin 1) k))
          (fun m k => wa (ix2 m k)) (fun n m => wb (ix2 m n)) n := by
  rw [pay_eq]; exact outBlk_apply x0 g b wa wb p n

end Cert.KernelIdeal.PayloadValue

end
-- ==== Proof.KernelValue.lean ====
/-
  What the kernel's program leaves in its result array.

  Around the region the program pads `x` with 512 zero rows (65536 → 66048 = 43 · 1536), changes the weights' float
  format (the identity on extended reals), transposes `w2`, and views `γ`, `β` as rows `[1, 768]`; after the region it
  keeps the first 65536 rows of the region's output.

  The region runs 43 points.  Point `t` loads rows `1536·t … 1536·t + 1535` of the padded `x` and the whole of the
  other four arrays, and writes back the same rows of the output: its block index is `(t, 0)` for `x` and the output
  and `(0, 0)` for the rest.  Entry `(p, q)` of what it writes is, by `PayloadValue.pay_apply`, the row function of row
  `p` of its `x` block — row `1536·t + p` of the padded `x`.  So every point writes back its block of ONE function of the
  arrays as the region finds them (`paddedOf`: row `n`, column `q` is the row function of row `n`).  Row `r` of the output
  lies in the block of point `r / 1536`, so the blocks cover the output and it ends holding `paddedOf`.

  The slice reads row `n < 65536` of that; row `n` of the padded `x` is row `n` of `x` (the padding only adds rows after
  the last), so the padding rows are never looked at; the transposed `w2` at `(m, c)` is `w2` at `(c, m)`, and row `0`
  of the `[1, 768]` view of `γ` at `k` is `γ` at `k`.  Hence the result is `Result.G` of the five arguments.
-/
import proofs.«164816_j11330123727567_2_alg».proof.Proof.Gen.KernelIdeal.Frame
import proofs.«164816_j11330123727567_2_alg».proof.Proof.PayloadValue
import proofs.«164816_j11330123727567_2_alg».proof.Proof.Result
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The output of the region as one function of what the region finds -/

/-- Row `n`, column `q` of the region's output: the row function of row `n` of the padded `x`. -/
def rowOut (xp : S66048x768.Idx → EReal) (wa wb : S64x768.Idx → EReal) (g b : S1x768.Idx → EReal) (n : Fin 66048) (q : Fin 768) : EReal :=
  RowSpec.out (fun k => xp (ix2 n k)) (fun k => g (ix2 (0 : Fin 1) k)) (fun k => b (ix2 (0 : Fin 1) k))
    (fun j k => wa (ix2 j k)) (fun c j => wb (ix2 j c)) q

/-- The region's whole output. -/
def paddedOf (xp : S66048x768.Idx → EReal) (wa wb : S64x768.Idx → EReal) (g b : S1x768.Idx → EReal) : S66048x768.Idx → EReal :=
  fun i => rowOut xp wa wb g b (i 0) (i 1)

/-- The same of the arrays as the region finds them on core `c`. -/
def padded (c : Dev nD) : S66048x768.Idx → EReal :=
  paddedOf (V m c main_v0) (V m c main_v1) (V m c main_v3) (V m c main_v4) (V m c main_v5)

/-! ## The blocks of a point -/

/-- The printed index maps over the 43 points: `x` and the output move one block of rows per point, the other four
    windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the padded `x` is row `1536·t + p` of it. -/
theorem iblk0_apply (c : Dev nD) (t : Fin cfg0.N) (p : Fin 1536) (k : Fin 768) (n : Fin 66048)
    (hn : n.val = t.val * 1536 + p.val) :
    (iblk m c 0 t : Vec Ideal S1536x768 .f32) (ix2 p k) = (V m c main_v0 : S66048x768.Idx → EReal) (ix2 n k) := by
  obtain ⟨e0, e1, -⟩ := idx_facts t
  unfold iblk
  rw [View.read_apply]
  show (V m c main_v0 : S66048x768.Idx → EReal) _ = _
  refine congrArg (V m c main_v0 : S66048x768.Idx → EReal) (funext fun a => Fin.ext ?_)
  match a with
  | ⟨0, _⟩ => show win0_0.index t (0 : Fin 2) * 1536 + 1 * p.val = n.val; rw [e0, hn]; omega
  | ⟨1, _⟩ => show win0_0.index t (1 : Fin 2) * 768 + 1 * k.val = k.val; rw [e1]; omega

/-- The block of the first weight array is the whole array. -/
theorem iblk1_apply (c : Dev nD) (t : Fin cfg0.N) (j : Fin 64) (k : Fin 768) :
    (iblk m c 1 t : Vec Ideal S64x768 .bf16) (ix2 j k) = (V m c main_v1 : S64x768.Idx → EReal) (ix2 j k) := by
  obtain ⟨-, -, e0, e1, -⟩ := idx_facts t
  unfold iblk
  rw [View.read_apply]
  show (V m c main_v1 : S64x768.Idx → EReal) _ = _
  refine congrArg (V m c main_v1 : S64x768.Idx → EReal) (funext fun a => Fin.ext ?_)
  match a with
  | ⟨0, _⟩ => show win0_1.index t (0 : Fin 2) * 64 + 1 * j.val = j.val; rw [e0]; omega
  | ⟨1, _⟩ => show win0_1.index t (1 : Fin 2) * 768 + 1 * k.val = k.val; rw [e1]; omega

/-- The block of the second (transposed) weight array is the whole array. -/
theorem iblk2_apply (c : Dev nD) (t : Fin cfg0.N) (j : Fin 64) (k : Fin 768) :
    (iblk m c 2 t : Vec Ideal S64x768 .bf16) (ix2 j k) = (V m c main_v3 : S64x768.Idx → EReal) (ix2 j k) := by
  obtain ⟨-, -, -, -, e0, e1, -⟩ := idx_facts t
  unfold iblk
  rw [View.read_apply]
  show (V m c main_v3 : S64x768.Idx → EReal) _ = _
  refine congrArg (V m c main_v3 : S64x768.Idx → EReal) (funext fun a => Fin.ext ?_)
  match a with
  | ⟨0, _⟩ => show win0_2.index t (0 : Fin 2) * 64 + 1 * j.val = j.val; rw [e0]; omega
  | ⟨1, _⟩ => show win0_2.index t (1 : Fin 2) * 768 + 1 * k.val = k.val; rw [e1]; omega

/-- The block of the scale row is the whole row. -/
theorem iblk3_apply (c : Dev nD) (t : Fin cfg0.N) (k : Fin 768) :
    (iblk m c 3 t : Vec Ideal S1x768 .f32) (ix2 (0 : Fin 1) k) = (V m c main_v4 : S1x768.Idx → EReal) (ix2 (0 : Fin 1) k) := by
  obtain ⟨-, -, -, -, -, -, e0, e1, -⟩ := idx_facts t
  unfold iblk
  rw [View.read_apply]
  show (V m c main_v4 : S1x768.Idx → EReal) _ = _
  refine congrArg (V m c main_v4 : S1x768.Idx → EReal) (funext fun a => Fin.ext ?_)
  match a with
  | ⟨0, _⟩ => show win0_3.index t (0 : Fin 2) * 1 + 1 * 0 = 0; rw [e0]
  | ⟨1, _⟩ => show win0_3.index t (1 : Fin 2) * 768 + 1 * k.val = k.val; rw [e1]; omega

/-- The block of the shift row is the whole row. -/
theorem iblk4_apply (c : Dev nD) (t : Fin cfg0.N) (k : Fin 768) :
    (iblk m c 4 t : Vec Ideal S1x768 .f32) (ix2 (0 : Fin 1) k) = (V m c main_v5 : S1x768.Idx → EReal) (ix2 (0 : Fin 1) k) := by
  obtain ⟨-, -, -, -, -, -, -, -, e0, e1, -⟩ := idx_facts t
  unfold iblk
  rw [View.read_apply]
  show (V m c main_v5 : S1x768.Idx → EReal) _ = _
  refine congrArg (V m c main_v5 : S1x768.Idx → EReal) (funext fun a => Fin.ext ?_)
  match a with
  | ⟨0, _⟩ => show win0_4.index t (0 : Fin 2) * 1 + 1 * 0 = 0; rw [e0]
  | ⟨1, _⟩ => show win0_4.index t (1 : Fin 2) * 768 + 1 * k.val = k.val; rw [e1]; omega

/-- An entry of what the body stores, when its loads are blocks of the region's arrays: the row function of the row of
    the padded `x` that the loaded row is. -/
theorem block_entry (X0 : Vec Ideal S1536x768 .f32) (X1 X2 : Vec Ideal S64x768 .bf16) (X3 X4 : Vec Ideal S1x768 .f32)
    (xp : S66048x768.Idx → EReal) (wa wb : S64x768.Idx → EReal) (g b : S1x768.Idx → EReal)
    (p : Fin 1536) (q : Fin 768) (n : Fin 66048)
    (h0 : ∀ k : Fin 768, X0 (ix2 p k) = xp (ix2 n k))
    (h1 : ∀ (j : Fin 64) (k : Fin 768), X1 (ix2 j k) = wa (ix2 j k))
    (h2 : ∀ (j : Fin 64) (k : Fin 768), X2 (ix2 j k) = wb (ix2 j k))
    (h3 : ∀ k : Fin 768, X3 (ix2 (0 : Fin 1) k) = g (ix2 (0 : Fin 1) k))
    (h4 : ∀ k : Fin 768, X4 (ix2 (0 : Fin 1) k) = b (ix2 (0 : Fin 1) k)) :
    k0_pay1 (F := Ideal) X0 X3 X4 X1 X2 (ix2 p q) = rowOut xp wa wb g b n q := by
  rw [PayloadValue.pay_apply]
  unfold rowOut
  simp only [h0, h1, h2, h3, h4]

/-- WHAT POINT `t` WRITES BACK is its block of the region's output function. -/
theorem flushed_eq (c : Dev nD) (t : Fin cfg0.N) :
    (dats m 0 c).flushed 5 t = ((cfg0.win 5).blk t).view.read (Elt Ideal) (padded m c) := by
  show (cfg0.win 5).cut (grid0.coords t) ((dats m 0 c).after 5 t) = _
  rw [after0_5]
  unfold out0_5
  rw [View.canon_unit_zero hz]
  simp only [View.ld_unit_zero (S := S1536x768) hz, View.ld_unit_zero (S := S1x768) hz, View.ld_unit_zero (S := S64x768) hz]
  obtain ⟨-, -, -, -, -, -, -, -, -, -, e0, e1⟩ := idx_facts t
  have hN : grid0.N = 43 := N_0
  have ht : t.val < grid0.N := t.isLt
  funext j
  obtain ⟨p, q, rfl⟩ : ∃ (p : Fin 1536) (q : Fin 768), j = ix2 p q := ⟨j 0, j 1, eq_ix2 j⟩
  have hp : p.val < 1536 := p.isLt
  rw [View.read_apply]
  have hemb : ((cfg0.win 5).blk t).view.emb (ix2 p q)
      = (ix2 (⟨t.val * 1536 + p.val, by omega⟩ : Fin 66048) q : S66048x768.Idx) := by
    funext a; apply Fin.ext
    match a with
    | ⟨0, _⟩ => show win0_5.index t (0 : Fin 2) * 1536 + 1 * p.val = t.val * 1536 + p.val; rw [e0]; omega
    | ⟨1, _⟩ => show win0_5.index t (1 : Fin 2) * 768 + 1 * q.val = q.val; rw [e1]; omega
  show k0_pay1 (F := Ideal) (iblk m c 0 t) (iblk m c 3 t) (iblk m c 4 t) (iblk m c 1 t) (iblk m c 2 t) (ix2 p q)
    = padded m c (((cfg0.win 5).blk t).view.emb (ix2 p q))
  rw [hemb]
  exact block_entry (iblk m c 0 t) (iblk m c 1 t) (iblk m c 2 t) (iblk m c 3 t) (iblk m c 4 t)
    (V m c main_v0) (V m c main_v1) (V m c main_v3) (V m c main_v4) (V m c main_v5) p q ⟨t.val * 1536 + p.val, by omega⟩
    (fun k => iblk0_apply m c t p k _ rfl) (fun j k => iblk1_apply m c t j k) (fun j k => iblk2_apply m c t j k)
    (fun k => iblk3_apply m c t k) (fun k => iblk4_apply m c t k)

/-! ## The blocks cover the output -/

/-- An index of the output is in point `t`'s block iff each coordinate is in the block's range on its axis. -/
theorem mem_blk (t : Fin cfg0.N) (i : S66048x768.Idx) :
    i ∈ ((cfg0.win 5).blk t).view.set ↔ ∀ a : Fin 2, win0_5.index t a * S1536x768.size a ≤ (i a).val ∧ (i a).val < win0_5.index t a * S1536x768.size a + S1536x768.size a := by
  show i ∈ ((View.whole main_v6).slice (win0_5.rect t)).set ↔ _
  rw [View.set_slice_whole, Rect.mem_set_unit]
  exact Iff.rfl

/-- Row `r` of the output is in the block of point `r / 1536`. -/
theorem cover (i : S66048x768.Idx) : ∃ t : Fin cfg0.N, (cfg0.win 5).flush t = true ∧ i ∈ ((cfg0.win 5).blk t).view.set := by
  have hN : grid0.N = 43 := N_0
  have hi0 : (i 0).val < 66048 := (i 0).isLt
  have hi1 : (i 1).val < 768 := (i 1).isLt
  have hlt : (i 0).val / 1536 < grid0.N := by omega
  refine ⟨⟨(i 0).val / 1536, hlt⟩, flush0_5 _, ?_⟩
  rw [mem_blk]
  obtain ⟨-, -, -, -, -, -, -, -, -, -, e0, e1⟩ := idx_facts ⟨(i 0).val / 1536, hlt⟩
  intro a
  match a with
  | ⟨0, _⟩ =>
    show win0_5.index ⟨(i 0).val / 1536, hlt⟩ (0 : Fin 2) * 1536 ≤ (i 0).val ∧ (i 0).val < win0_5.index ⟨(i 0).val / 1536, hlt⟩ (0 : Fin 2) * 1536 + 1536
    rw [e0]; show (i 0).val / 1536 * 1536 ≤ (i 0).val ∧ (i 0).val < (i 0).val / 1536 * 1536 + 1536; omega
  | ⟨1, _⟩ =>
    show win0_5.index ⟨(i 0).val / 1536, hlt⟩ (1 : Fin 2) * 768 ≤ (i 1).val ∧ (i 1).val < win0_5.index ⟨(i 0).val / 1536, hlt⟩ (1 : Fin 2) * 768 + 768
    rw [e1]; omega

/-- THE REGION'S OUTPUT after the run is `padded`. -/
theorem final (c : Dev nD) : (dats m 0 c).arrAt 5 cfg0.N = padded m c :=
  (dats m 0 c).arrAt_eq_of_cover 5 (padded m c) (fun t _ => flushed_eq m c t) cover

/-! ## The slice after the region -/

/-- The program's result is the first 65536 rows of the region's output. -/
theorem tail_eq (c : Dev nD) :
    Pipeline.afterTail₀ cfgs (dats m) 0 (V0 m) [hostOps1] c main_v7
      = (extractStridedSlice S65536x768 ![0, 0] (padded m c) slices_S66048x768_S65536x768_0_0 : S65536x768.Idx → EReal) := by
  unfold Pipeline.afterTail₀
  show StableHlo.after hostOps1 _ (Proc.devRef .tc main_v7) = _
  after_results
  rw [(Pipeline.withArrays_arr spec0 launch0.win.arr_inj c _ _ 5).trans (final m c)]

/-! ## What the region finds, entry by entry -/

/-- Row `n < 65536` of the padded `x` is row `n` of `x`: the padding adds rows after the last only. -/
theorem V_x_apply (c : Dev nD) (n : Fin 65536) (k : Fin 768) (n' : Fin 66048) (hn : n'.val = n.val) :
    (V m c main_v0 : S66048x768.Idx → EReal) (ix2 n' k)
      = (m ((c : Thread nD τ).loc main_arg0) : S65536x768.Idx → EReal) (ix2 n k) := by
  have e : (V m c main_v0 : S66048x768.Idx → EReal)
      = pad S66048x768 ![0, 0] ![512, 0] ![0, 0] (m ((c : Thread nD τ).loc main_arg0) : S65536x768.Idx → EReal)
          (sitofp (F := Ideal) .f32 (constantI S_ 32 0#32)) pads_S65536x768_S66048x768_05120_000 h_S_ := by
    dsimp only [V, V0]
    simp only [hostOps0, hostOps0_1, hostOps0_2, List.flatten_cons, List.flatten_nil, List.append_nil, List.cons_append,
      List.nil_append]
    after_results
    rfl
  rw [e]
  refine pad_apply_of_inside _ _ _ _ _ pads_S65536x768_S66048x768_05120_000 h_S_ (ix2 n' k) (ix2 n k) fun a => ?_
  match a with
  | ⟨0, _⟩ => show n'.val = 0 + n.val * (0 + 1); omega
  | ⟨1, _⟩ => show k.val = 0 + k.val * (0 + 1); omega

/-- The first weight array as the region finds it is `w1` (a change of float format). -/
theorem V_w1_apply (c : Dev nD) (j : Fin 64) (k : Fin 768) :
    (V m c main_v1 : S64x768.Idx → EReal) (ix2 j k) = (m ((c : Thread nD τ).loc main_arg1) : S64x768.Idx → EReal) (ix2 j k) := by
  have e : @Eq (FVec Ideal S64x768 .bf16) (V m c main_v1)
      (truncf .bf16 (m ((c : Thread nD τ).loc main_arg1) : FVec Ideal S64x768 .f32) bitsLt_bf16_f32) := by
    dsimp only [V, V0]
    simp only [hostOps0, hostOps0_1, hostOps0_2, List.flatten_cons, List.flatten_nil, List.append_nil, List.cons_append,
      List.nil_append]
    after_results <;> rfl
  rw [e]; rfl

/-- The second weight array as the region finds it is `w2` transposed (and a change of float format). -/
theorem V_w2_apply (c : Dev nD) (j : Fin 64) (k : Fin 768) :
    (V m c main_v3 : S64x768.Idx → EReal) (ix2 j k) = (m ((c : Thread nD τ).loc main_arg2) : S768x64.Idx → EReal) (ix2 k j) := by
  have e : @Eq (FVec Ideal S64x768 .bf16) (V m c main_v3)
      (truncf .bf16 (transpose S64x768 [1, 0] (m ((c : Thread nD τ).loc main_arg2) : FVec Ideal S768x64 .f32) transposes_S768x64_S64x768_1_0 : FVec Ideal S64x768 .f32) bitsLt_bf16_f32) := by
    dsimp only [V, V0]
    simp only [hostOps0, hostOps0_1, hostOps0_2, List.flatten_cons, List.flatten_nil, List.append_nil, List.cons_append,
      List.nil_append]
    after_results <;> rfl
  rw [e, truncf_apply]
  exact transpose_ix2_apply _ transposes_S768x64_S64x768_1_0 j k

/-- The scale row as the region finds it is `γ`. -/
theorem V_g_apply (c : Dev nD) (k : Fin 768) :
    (V m c main_v4 : S1x768.Idx → EReal) (ix2 (0 : Fin 1) k) = (m ((c : Thread nD τ).loc main_arg3) : S768.Idx → EReal) (ix1 k) := by
  have e : (V m c main_v4 : S1x768.Idx → EReal)
      = shapeCast S1x768 (m ((c : Thread nD τ).loc main_arg3) : S768.Idx → EReal) shapeCasts_S768_S1x768 := by
    dsimp only [V, V0]
    simp only [hostOps0, hostOps0_1, hostOps0_2, List.flatten_cons, List.flatten_nil, List.append_nil, List.cons_append,
      List.nil_append]
    after_results
    rfl
  rw [e]
  exact shapeCast_a_1a_apply _ shapeCasts_S768_S1x768 0 k

/-- The shift row as the region finds it is `β`. -/
theorem V_b_apply (c : Dev nD) (k : Fin 768) :
    (V m c main_v5 : S1x768.Idx → EReal) (ix2 (0 : Fin 1) k) = (m ((c : Thread nD τ).loc main_arg4) : S768.Idx → EReal) (ix1 k) := by
  have e : (V m c main_v5 : S1x768.Idx → EReal)
      = shapeCast S1x768 (m ((c : Thread nD τ).loc main_arg4) : S768.Idx → EReal) shapeCasts_S768_S1x768 := by
    dsimp only [V, V0]
    simp only [hostOps0, hostOps0_1, hostOps0_2, List.flatten_cons, List.flatten_nil, List.append_nil, List.cons_append,
      List.nil_append]
    after_results
    rfl
  rw [e]
  exact shapeCast_a_1a_apply _ shapeCasts_S768_S1x768 0 k

/-! ## The program's result -/

/-- THE RESULT ARRAY after the run is `Result.G` of the five arguments. -/
theorem result_eq (c : Dev nD) :
    Pipeline.afterTail₀ cfgs (dats m) 0 (V0 m) [hostOps1] c main_v7
      = Result.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq]
  funext i
  obtain ⟨n, q, rfl⟩ : ∃ (n : Fin 65536) (q : Fin 768), i = ix2 n q := ⟨i 0, i 1, eq_ix2 i⟩
  have hn : n.val < 65536 := n.isLt
  rw [Result.G_apply]
  refine (slice2_axis0_apply 0 (padded m c) slices_S66048x768_S65536x768_0_0 n q ⟨n.val, by omega⟩ (by simp)).trans ?_
  show rowOut (V m c main_v0) (V m c main_v1) (V m c main_v3) (V m c main_v4) (V m c main_v5) ⟨n.val, by omega⟩ q = _
  unfold rowOut Result.entry
  exact RowSpec.out_congr (fun k => V_x_apply m c n k ⟨n.val, by omega⟩ rfl) (fun k => V_g_apply m c k) (fun k => V_b_apply m c k)
    (fun j k => V_w1_apply m c j k) (fun k j => V_w2_apply m c j k) q

/-- The run, read: the result at `Result.G` of the arguments, the arguments unchanged. -/
theorem run : θ_run defs (onTc (τ := τ) (main (F := Ideal))) ⟨m, fun _ => 0, ρ⟩ fun r => ∀ c : Dev nD,
      r.2.mem ((c.tc : Thread nD τ).loc main_v7)
          = Result.G (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v7 (Pipeline.mem_restRefs_of main_v7 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference's result, read at one entry.

  The reference computes the same stages as `Cert.RowSpec`, whole-array: for every row `n` of `x` its sum over the
  768 lanes (started from the float zero, which adds nothing), the quotient by 768 kept as a column and broadcast
  back, the centred entries, their squares summed and divided again, `ε` added, the inverse square root, then
  `((centred · invStd) · γ) + β`, two contractions against `w1` and `w2` (each over the last axis of both operands)
  and a relu after each.  Read at `(n, c)` every stage only looks at row `n` of `x`:
    the mean column at `(n, ·)`           is  mean (row n)
    the centred array at `(n, q)`        is  centred (row n) q            (it is computed twice; both are this)
    the variance column at `(n, ·)`       is  variance (row n)
    the inverse deviation at `(n, ·)`     is  invStd (row n)
    the normalised array at `(n, q)`      is  normed (row n) γ β q          up to the grouping of the scale
    the hidden array at `(n, m)`          is  hidden (row n) γ β w1 m
    the result at `(n, c)`                is  out (row n) γ β w1 w2 c.
  The grouping is `RowSpec.normed_assoc`; the broadcasts and the operand indices of the contractions are read
  coordinate by coordinate.
-/
import proofs.«164816_j11330123727567_2_alg».proof.Proof.Gen.ReferenceIdeal.Read
import proofs.«164816_j11330123727567_2_alg».proof.Proof.RowSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S65536x768, .f32⟩ : BufTy).Contents (Elt Ideal)) (x1 : (⟨S64x768, .f32⟩ : BufTy).Contents (Elt Ideal))
  (x2 : (⟨S768x64, .f32⟩ : BufTy).Contents (Elt Ideal)) (x3 x4 : (⟨S768, .f32⟩ : BufTy).Contents (Elt Ideal))

/-- Row `n` of `x`. -/
abbrev row (n : Fin 65536) : Fin 768 → EReal := fun k => x0 (ix2 n k)

/-- The mean column at row `n`. -/
theorem mean_apply (n : Fin 65536) (u : Fin 1) : val_main_v3 (F := Ideal) x0 (ix2 n u) = RowSpec.mean (row x0 n) := by
  unfold RowSpec.mean
  rw [val_main_v3_apply, val_main_v1_apply, val_main_v0_apply, val_main_cst_apply, val_main_v2_apply, val_main_cst_0_apply]
  simp only [Ideal.hostDivf_def, Ideal.ofBits_def, Ideal.ofBits_zero_f32, zero_add]
  refine congrArg (Ideal.div · _) (Finset.sum_congr rfl fun k _ => congrArg x0 ?_)
  funext a; match a with | ⟨0, _⟩ => rfl | ⟨1, _⟩ => rfl

/-- The first centred array at `(n, q)` (the one that is squared). -/
theorem centredA_apply (n : Fin 65536) (q : Fin 768) :
    val_main_v5 (F := Ideal) x0 (ix2 n q) = RowSpec.centred (row x0 n) q := by
  unfold RowSpec.centred
  rw [val_main_v5_apply, val_main_v4_apply,
    show idx_main_v4 (ix2 n q) = ix2 n (0 : Fin 1) from funext fun a => by match a with | ⟨0, _⟩ => rfl | ⟨1, _⟩ => rfl,
    mean_apply]
  rfl

/-- The second centred array at `(n, q)` (the one that is scaled). -/
theorem centredB_apply (n : Fin 65536) (q : Fin 768) :
    val_main_v12 (F := Ideal) x0 (ix2 n q) = RowSpec.centred (row x0 n) q := by
  unfold RowSpec.centred
  rw [val_main_v12_apply, val_main_v11_apply,
    show idx_main_v11 (ix2 n q) = ix2 n (0 : Fin 1) from funext fun a => by match a with | ⟨0, _⟩ => rfl | ⟨1, _⟩ => rfl,
    mean_apply]
  rfl

/-- The variance column at row `n`. -/
theorem variance_apply (n : Fin 65536) (u : Fin 1) :
    val_main_v10 (F := Ideal) x0 (ix2 n u) = RowSpec.variance (row x0 n) := by
  unfold RowSpec.variance
  rw [val_main_v10_apply, val_main_v8_apply, val_main_v7_apply, val_main_cst_1_apply, val_main_v9_apply, val_main_cst_2_apply]
  simp only [Ideal.hostDivf_def, Ideal.ofBits_def, Ideal.ofBits_zero_f32, zero_add]
  refine congrArg (Ideal.div · _) (Finset.sum_congr rfl fun k _ => ?_)
  rw [show idx_main_v7 (idx_main_v8 (ix2 n u)) k = ix2 n k from funext fun a => by match a with | ⟨0, _⟩ => rfl | ⟨1, _⟩ => rfl,
    val_main_v6_apply, centredA_apply]
  rfl

/-- The inverse standard deviation column at row `n`. -/
theorem invStd_apply (n : Fin 65536) (u : Fin 1) :
    val_main_v15 (F := Ideal) x0 (ix2 n u) = RowSpec.invStd (row x0 n) := by
  unfold RowSpec.invStd
  rw [val_main_v15_apply, val_main_v14_apply, variance_apply, val_main_v13_apply, val_main_cst_3_apply]
  rfl

/-- The normalised array at `(n, q)`. -/
theorem normed_apply (n : Fin 65536) (q : Fin 768) :
    val_main_v23 (F := Ideal) x0 x3 x4 (ix2 n q)
      = RowSpec.normed (row x0 n) (fun k => x3 (ix1 k)) (fun k => x4 (ix1 k)) q := by
  rw [val_main_v23_apply, val_main_v20_apply, val_main_v17_apply, centredB_apply, val_main_v16_apply,
    show idx_main_v16 (ix2 n q) = ix2 n (0 : Fin 1) from funext fun a => by match a with | ⟨0, _⟩ => rfl | ⟨1, _⟩ => rfl,
    invStd_apply, val_main_v19_apply, val_main_v18_apply, val_main_v22_apply, val_main_v21_apply,
    show idx_main_v18 (idx_main_v19 (ix2 n q)) = ix1 q from funext fun a => by match a with | ⟨0, _⟩ => rfl,
    show idx_main_v21 (idx_main_v22 (ix2 n q)) = ix1 q from funext fun a => by match a with | ⟨0, _⟩ => rfl]
  exact RowSpec.normed_assoc (row x0 n) (fun k => x3 (ix1 k)) (fun k => x4 (ix1 k)) q

/-- The hidden array at `(n, m)`. -/
theorem hidden_apply (n : Fin 65536) (m : Fin 64) :
    val_main_v25 (F := Ideal) x0 x1 x3 x4 (ix2 n m)
      = RowSpec.hidden (row x0 n) (fun k => x3 (ix1 k)) (fun k => x4 (ix1 k)) (fun m k => x1 (ix2 m k)) m := by
  unfold RowSpec.hidden
  rw [val_main_v25_apply, val_main_v24_apply, val_main_call0_v0_apply, val_main_call0_cst_apply]
  refine congrArg (max · RowSpec.zero) (Finset.sum_congr rfl fun k _ => ?_)
  rw [show lidx_main_v24 (ix2 n m) k = ix2 n k from funext fun a => by match a with | ⟨0, _⟩ => rfl | ⟨1, _⟩ => rfl,
    show ridx_main_v24 (ix2 n m) k = ix2 m k from funext fun a => by match a with | ⟨0, _⟩ => rfl | ⟨1, _⟩ => rfl,
    normed_apply]

/-- The reference's result at `(n, c)` is the specification's row function of row `n`. -/
theorem result_apply (n : Fin 65536) (c : Fin 768) :
    val_main_v27 (F := Ideal) x0 x1 x2 x3 x4 (ix2 n c)
      = RowSpec.out (row x0 n) (fun k => x3 (ix1 k)) (fun k => x4 (ix1 k)) (fun m k => x1 (ix2 m k))
          (fun c m => x2 (ix2 c m)) c := by
  unfold RowSpec.out
  rw [val_main_v27_apply, val_main_v26_apply, val_main_call1_v0_apply, val_main_call1_cst_apply]
  refine congrArg (max · RowSpec.zero) (Finset.sum_congr rfl fun k _ => ?_)
  rw [show lidx_main_v26 (ix2 n c) k = ix2 n k from funext fun a => by match a with | ⟨0, _⟩ => rfl | ⟨1, _⟩ => rfl,
    show ridx_main_v26 (ix2 n c) k = ix2 c k from funext fun a => by match a with | ⟨0, _⟩ => rfl | ⟨1, _⟩ => rfl,
    hidden_apply]

end Cert.ReferenceIdeal.RefValue

end
-- ==== Proof.lean ====
/-
  A row-wise layer normalisation followed by a two-layer bottleneck (768 → 64 → 768, a relu after each layer), computed by
  a tiled kernel and by a whole-array reference: the two are the same function of the five arguments on the extended reals.

  Every row of the result depends on the same row of `x` only (`Cert.RowSpec`: mean, centred entries, variance, inverse
  standard deviation, the normalised row, the hidden row, the output row).  The kernel pads `x` to 43 blocks of 1536 rows,
  computes each block's rows (`PayloadValue`), writes the blocks back — they cover the padded output — and keeps the first
  65536 rows (`KernelValue`); the padding rows are never read by a kept row.  The reference computes the same stages on the
  whole array (`RefValue`).  Both end at `Cert.Result.G` of the arguments.  The only algebra between them is that
  multiplication of extended reals associates; a change of float format is the identity, a product into a zero
  accumulator and a sum started from zero are plain sums.  The precondition is not used.

  The idealised kernel is the kernel's own text read on the extended reals (nothing was rewritten), so `preserves` has
  nothing to state.  Each program's frame (it terminates, faults nowhere and leaves its arguments as they were) is the
  generated one; the reference's is its generated run with the result dropped.
-/
import proofs.«164816_j11330123727567_2_alg».proof.Defs
import proofs.«164816_j11330123727567_2_alg».proof.Proof.Gen.Kernel
import proofs.«164816_j11330123727567_2_alg».proof.Proof.Gen.Kernel.Skeleton
import proofs.«164816_j11330123727567_2_alg».proof.Proof.Gen.Kernel.Launch
import proofs.«164816_j11330123727567_2_alg».proof.Proof.Gen.Kernel.Points
import proofs.«164816_j11330123727567_2_alg».proof.Proof.Gen.Kernel.Frame
import proofs.«164816_j11330123727567_2_alg».proof.Proof.Gen.KernelIdeal
import proofs.«164816_j11330123727567_2_alg».proof.Proof.Gen.KernelIdeal.Skeleton
import proofs.«164816_j11330123727567_2_alg».proof.Proof.Gen.KernelIdeal.Launch
import proofs.«164816_j11330123727567_2_alg».proof.Proof.Gen.KernelIdeal.Points
import proofs.«164816_j11330123727567_2_alg».proof.Proof.Gen.KernelIdeal.Frame
import proofs.«164816_j11330123727567_2_alg».proof.Proof.Gen.ReferenceIdeal
import proofs.«164816_j11330123727567_2_alg».proof.Proof.Gen.ReferenceIdeal.Run
import proofs.«164816_j11330123727567_2_alg».proof.Proof.Gen.ReferenceIdeal.Read
import proofs.«164816_j11330123727567_2_alg».proof.Proof.Gen.Pre_finite_inputs
import proofs.«164816_j11330123727567_2_alg».proof.Proof.Result
import proofs.«164816_j11330123727567_2_alg».proof.Proof.KernelValue
import proofs.«164816_j11330123727567_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's whole result is `Result.G` of its arguments: entry by entry it is the row function of the row. -/
theorem reference_result (x0 : (⟨Cert.ReferenceIdeal.S65536x768, .f32⟩ : BufTy).Contents (Elt Ideal))
    (x1 : (⟨Cert.ReferenceIdeal.S64x768, .f32⟩ : BufTy).Contents (Elt Ideal))
    (x2 : (⟨Cert.ReferenceIdeal.S768x64, .f32⟩ : BufTy).Contents (Elt Ideal))
    (x3 x4 : (⟨Cert.ReferenceIdeal.S768, .f32⟩ : BufTy).Contents (Elt Ideal)) :
    Cert.ReferenceIdeal.Read.val_main_v27 (F := Ideal) x0 x1 x2 x3 x4 = Cert.Result.G x0 x1 x2 x3 x4 := by
  funext i
  obtain ⟨n, q, rfl⟩ : ∃ (n : Fin 65536) (q : Fin 768), i = ix2 n q := ⟨i 0, i 1, eq_ix2 i⟩
  exact Cert.ReferenceIdeal.RefValue.result_apply x0 x1 x2 x3 x4 n q

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to idealise it. -/
theorem preserves : Cert.preserves_Kernel_KernelIdeal := trivial

/-- From memories that agree on the arguments both programs end with `Result.G` of them in their result arrays. -/
theorem algebraic : Cert.algebraic_KernelIdeal_ReferenceIdeal := by
  intro m ρ m' ρ' _ hagree
  refine ⟨fun c => Cert.Result.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, reference_result, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
